-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S65536x1024 .f32) (main_arg1 : FVec F S1024x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S65536x1024 : Shape := ⟨2, ![65536, 1024]⟩
abbrev S1024x1024 : Shape := ⟨2, ![1024, 1024]⟩
abbrev S65536x1 : Shape := ⟨2, ![65536, 1]⟩
abbrev S1024x1 : Shape := ⟨2, ![1024, 1]⟩
abbrev S1x1024 : Shape := ⟨2, ![1, 1024]⟩
abbrev S1024 : Shape := ⟨1, ![1024]⟩

abbrev nBuf : Space → Nat
  | .hbm => 3
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S65536x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1, .f32⟩
  | .local _ .vmem, ⟨4, _⟩ => ⟨S1024x1, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  reduces_S1024x1024_S1024 : S1024x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024_2 : S1024x1024.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .f32 = 32 ∨ (Rect.block (s := S65536x1) S1024x1.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S65536x1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S65536x1024, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S65536x1, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  reducesTo_S1024x1024_S1024_d0 : S1024x1024.ReducesTo [0] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.SumLaw.lean ====
/-
  The law that joins the two numerators.  For weights `b j` and a matrix `w j m`,

      ∑ m, ∑ j, b j * w j m  =  ∑ j, b j * ∑ m, w j m :

  summing, over the columns, the row vector times the matrix is the weighted sum of the matrix's row sums
  (exchange the two sums, then take the weight out of the inner one).  Over the reals this is distributivity;
  over the extended reals distributivity fails at the infinities, so the law is stated for entries that are
  all (coercions of) real numbers, and proved by pushing the coercion out to the real law.
-/
import Idealize.ShloMosaic.PureOps.Ideal

namespace Cert.SumLaw

/-- Over the reals: exchange the sums and factor the weight. -/
theorem sum_rows_real {J M : Type*} [Fintype J] [Fintype M] (b : J → ℝ) (w : J → M → ℝ) :
    ∑ m, ∑ j, b j * w j m = ∑ j, b j * ∑ m, w j m := by
  rw [Finset.sum_comm]
  exact Finset.sum_congr rfl fun j _ => (Finset.mul_sum _ _ _).symm

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are all real is real. -/
theorem sum_real {ι : Type*} (s : Finset ι) (f : ι → EReal) (hf : ∀ i, ∃ r : ℝ, f i = r) :
    ∃ r : ℝ, ∑ i ∈ s, f i = r := by
  choose g hg using hf
  exact ⟨∑ i ∈ s, g i, by rw [coe_sum]; exact Finset.sum_congr rfl fun i _ => hg i⟩

/-- Over the extended reals, for entries that are all real. -/
theorem sum_rows {J M : Type*} [Fintype J] [Fintype M] (b : J → EReal) (w : J → M → EReal)
    (hb : ∀ j, ∃ r : ℝ, b j = r) (hw : ∀ j m, ∃ r : ℝ, w j m = r) :
    ∑ m, ∑ j, b j * w j m = ∑ j, b j * ∑ m, w j m := by
  choose β hβ using hb
  choose ω hω using hw
  simp only [hβ, hω, ← EReal.coe_mul, ← coe_sum]
  exact congrArg _ (sum_rows_real β ω)

end Cert.SumLaw
-- ==== Proof.Spec.lean ====
/-
  The function both programs compute, one output row at a time.

  For a row `x` of 1024 numbers and a 1024 × 1024 matrix `W`:
    colSq W j   = ∑ k, W k j ²                 the squared norm of column j of W
    rowSum W j  = ∑ m, W j m                   the sum of row j of W
    cross x W j = ∑ k, x k · W k j             the inner product of x with column j
    dist2 x W j = max (|x|² + colSq W j − 2 · cross x W j) 0     the clamped squared distance from x to column j
    basis x W j = exp (−dist2 x W j / 2048)    the radial weight of column j
  and the result is a ratio with the sum of the weights below.  The two programs differ only in the numerator:
    ratio    x W = (∑ j, basis j · rowSum W j) / ∑ j, basis j          weights times row sums
    ratioRef x W = (∑ m, ∑ j, basis j · W j m) / ∑ j, basis j          the weights times W, then summed over columns.
  The weights are real numbers in [0, 1] whatever `x` is (the exponent is never positive), so when the entries of
  `W` are real the two numerators agree by the sum law, and with them the ratios.  The literals 2 and 2048 stay as
  the bit patterns both programs spell; only 2048 is evaluated, to know the divisor is a positive real.
-/
import Idealize.ShloMosaic.PureOps.Ideal
import Idealize.ShloMosaic.PureOps.Ideal.Laws
import Idealize.ShloMosaic.Lib.ValueIdx
import proofs.«161366_j38706245271761_2_alg».proof.Proof.SumLaw

noncomputable section

namespace Cert.RbfRatio

open Idealize.ShloMosaic Idealize.ShloMosaic.ValueIdx

/-- A row of the data matrix. -/
abbrev Row := Fin 1024 → EReal
/-- The square weight matrix, indexed as the programs index it. -/
abbrev Mat := (⟨2, ![1024, 1024]⟩ : Shape).Idx → EReal

def rowSq (x : Row) : EReal := ∑ k : Fin 1024, x k * x k
def colSq (W : Mat) (j : Fin 1024) : EReal := ∑ k : Fin 1024, W (ix2 k j) * W (ix2 k j)
def rowSum (W : Mat) (j : Fin 1024) : EReal := ∑ m : Fin 1024, W (ix2 j m)
def cross (x : Row) (W : Mat) (j : Fin 1024) : EReal := ∑ k : Fin 1024, x k * W (ix2 k j)
def dist2 (x : Row) (W : Mat) (j : Fin 1024) : EReal :=
  max (rowSq x + colSq W j - Ideal.ofBits .f32 0x40000000#32 * cross x W j) 0
def basis (x : Row) (W : Mat) (j : Fin 1024) : EReal :=
  Ideal.exp (Ideal.div (-(dist2 x W j)) (Ideal.ofBits .f32 0x45000000#32))
def ratio (x : Row) (W : Mat) : EReal :=
  Ideal.div (∑ j : Fin 1024, basis x W j * rowSum W j) (∑ j : Fin 1024, basis x W j)
def ratioRef (x : Row) (W : Mat) : EReal :=
  Ideal.div (∑ m : Fin 1024, ∑ j : Fin 1024, basis x W j * W (ix2 j m)) (∑ j : Fin 1024, basis x W j)

/-- The whole result: a column with one entry per row of the data matrix, the ratio of that row. -/
def result (X : (⟨2, ![65536, 1024]⟩ : Shape).Idx → EReal) (W : Mat) : (⟨2, ![65536, 1]⟩ : Shape).Idx → EReal :=
  fun i => ratio (fun k => X (ix2 (⟨(i 0).val, (i 0).isLt⟩ : Fin 65536) k)) W

/-- The pattern `0x45000000` denotes the real 2048. -/
theorem width_eq : Ideal.ofBits .f32 0x45000000#32 = ((2048 : ℝ) : EReal) := by
  simp [Ideal.ofBits, Ideal.ieee, -EReal.coe_mul]; norm_num

/-- The exponential of an extended real that is not positive is a real number (`exp ⊥ = 0`). -/
theorem exp_real_of_nonpos (e : EReal) (he : e ≤ 0) : ∃ r : ℝ, Ideal.exp e = r := by
  induction e using EReal.rec with
  | bot => exact ⟨0, by simp⟩
  | coe r => exact ⟨Real.exp r, rfl⟩
  | top => exact absurd he (by simp)

/-- Every radial weight is a real number: the clamped distance is at least 0, so the exponent is at most 0. -/
theorem basis_real (x : Row) (W : Mat) (j : Fin 1024) : ∃ r : ℝ, basis x W j = r := by
  unfold basis
  refine exp_real_of_nonpos _ ?_
  have hd : (0 : EReal) ≤ dist2 x W j := le_max_right _ _
  rw [width_eq, Ideal.div_coe (by norm_num : (2048 : ℝ) ≠ 0), neg_mul]
  have hc : (0 : EReal) ≤ ((1 / 2048 : ℝ) : EReal) := by exact_mod_cast (by norm_num : (0 : ℝ) ≤ 1 / 2048)
  have h := EReal.neg_le_neg_iff.mpr (EReal.mul_nonneg hd hc)
  rwa [neg_zero] at h

/-- With real entries in `W` the two numerators are equal, hence the two ratios. -/
theorem ratioRef_eq_ratio (x : Row) (W : Mat) (hW : ∀ i, ∃ r : ℝ, W i = r) : ratioRef x W = ratio x W := by
  unfold ratioRef ratio rowSum
  rw [Cert.SumLaw.sum_rows (fun j => basis x W j) (fun j m => W (ix2 j m)) (basis_real x W) (fun j m => hW _)]

end Cert.RbfRatio

end
-- ==== Proof.Finite.lean ====
/-
  What the precondition gives: every entry of the weight matrix is a real number.

  The precondition says, of each input array, that the absolute value of every entry is below +∞ (one conjunction
  over all entries per array, the two joined by "and").  Reading the second conjunct at one entry gives
  `max w (−w) < ⊤` for that entry `w`, and an extended real whose absolute value is below ⊤ is neither ⊤ nor ⊥.
-/
import proofs.«161366_j38706245271761_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.FiniteInputs

open Idealize.ShloMosaic Cert.Pre_finite_inputs

variable [Cert.Pre_finite_inputs.Facts]
open Cert.Pre_finite_inputs.Facts

/-- The rank-0 shape has one index. -/
instance : Subsingleton S_.Idx := ⟨fun a b => funext fun d => d.elim0⟩

/-- An extended real whose absolute value is below +∞ is a real number. -/
theorem real_of_abs_lt_top (x : EReal) (h : max x (-x) < ⊤) : ∃ r : ℝ, x = r := by
  induction x using EReal.rec with
  | bot => simp at h
  | coe r => exact ⟨r, rfl⟩
  | top => simp at h

/-- The pattern `0x7F800000` denotes +∞. -/
theorem inf_eq : Ideal.ofBits .f32 0x7F800000#32 = ⊤ := by simp [Ideal.ofBits, Ideal.ieee]

/-- Under the precondition every entry of the second argument is a real number. -/
theorem real_of_pre (X : FVec Ideal S65536x1024 .f32) (W : FVec Ideal S1024x1024 .f32)
    (h : Cert.Pre_finite_inputs.fn (F := Ideal) X W = fun _ => 1#1) (i : S1024x1024.Idx) : ∃ r : ℝ, W i = r := by
  have h0 := congrFun h ValueIdx.ix0
  dsimp only [Cert.Pre_finite_inputs.fn] at h0
  have h1 := (IntOp.andi_eq_one.mp h0).2
  have h2 := Host.reduce_andi_all _ _ _ _ _ h1 i
  have h3 : Ideal.cmp .olt (max (W i) (-(W i))) (Ideal.ofBits .f32 0x7F800000#32) = 1#1 := h2
  rw [inf_eq] at h3
  have h4 : max (W i) (-(W i)) < ⊤ := by
    by_contra hn
    have h5 : Ideal.cmp .olt (max (W i) (-(W i))) ⊤ = 0#1 := by simp [Ideal.cmp, hn]
    rw [h5] at h3
    exact absurd h3 (by decide)
  exact real_of_abs_lt_top _ h4

end Cert.FiniteInputs

end
-- ==== Proof.Blocks.lean ====
/-
  Where the blocks sit.  The grid has 64 points; at point `t` the data window's block is rows `1024·t … 1024·t + 1023`
  of the data matrix (all 1024 columns), the weights' window is the whole weight matrix at every point, and the result
  window's block is rows `1024·t …` of the result column.  A block's entry `y` sits at block index × block size + `y`.
-/
import proofs.«161366_j38706245271761_2_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The weight matrix and the data matrix as the region finds them. -/
abbrev Wm (c : Dev nD) : Vec Ideal S1024x1024 .f32 := m ((c : Thread nD τ).loc main_arg1)
abbrev Xm (c : Dev nD) : Vec Ideal S65536x1024 .f32 := m ((c : Thread nD τ).loc main_arg0)

/-- Where each window's block sits at point `t`: the data and result blocks at block row `t`, the weights at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weights' block is the whole weight matrix, at every point. -/
theorem wblk_eq (c : Dev nD) (t : Fin cfg0.N) : (iblk m c 1 t : Vec Ideal S1024x1024 .f32) = Wm m c := by
  obtain ⟨-, -, e2, e3, -, -⟩ := idx_facts t
  funext i
  unfold iblk
  rw [View.read_apply]
  show V m c main_arg1 _ = m ((c : Thread nD τ).loc main_arg1) i
  unfold V
  refine congrArg _ ?_
  funext a; apply Fin.ext
  match a with
  | ⟨0, _⟩ => show win0_1.index t (0 : Fin 2) * 1024 + 1 * (i 0).val = (i 0).val; rw [e2]; omega
  | ⟨1, _⟩ => show win0_1.index t (1 : Fin 2) * 1024 + 1 * (i 1).val = (i 1).val; rw [e3]; omega

/-- Entry `(p, k)` of the data block at point `t` is entry `(1024·t + p, k)` of the data matrix. -/
theorem xblk_apply (c : Dev nD) (t : Fin cfg0.N) (p k : Fin 1024) (r : Fin 65536) (hr : r.val = t.val * 1024 + p.val) :
    (iblk m c 0 t : Vec Ideal S1024x1024 .f32) (ix2 p k) = Xm m c (ix2 r k) := by
  obtain ⟨e0, e1, -, -, -, -⟩ := idx_facts t
  unfold iblk
  rw [View.read_apply]
  show V m c main_arg0 _ = m ((c : Thread nD τ).loc main_arg0) (ix2 r k)
  unfold V
  refine congrArg _ ?_
  funext a; apply Fin.ext
  match a with
  | ⟨0, _⟩ => show win0_0.index t (0 : Fin 2) * 1024 + 1 * p.val = r.val; rw [e0]; omega
  | ⟨1, _⟩ => show win0_0.index t (1 : Fin 2) * 1024 + 1 * k.val = k.val; rw [e1]; omega

end Cert.KernelIdeal.ArrayValue

end
-- ==== Proof.Pieces.lean ====
/-
  What one run of the kernel body leaves behind, case by case, as values.

  The body has two cases.  At the first grid point it first fills three buffers that live across grid points — the
  weight block rounded to bf16, the squared norms of its columns, and its row sums — and then computes the output block
  from the data block and those three buffers.  At every later point it only computes the output block, from the data
  block and whatever the three buffers held when the point began.  Each store covers its whole buffer, so what a
  buffer holds after the body is the stored value itself, and a load that follows a store reads that value back.
-/
import proofs.«161366_j38706245271761_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- At the first grid point the body fills the first carried buffer with the weight block rounded to bf16. -/
theorem carried0_A (c : Dev nD) (i : grid0.Coords) (a1 : Memref sig .tc .vmem S1024x1024 .f32) (h1 : a1.IsWhole) (a2 : Memref sig .tc .vmem S1024x1024 .f32) (h2 : a2.IsWhole) (a3 : Memref sig .tc .vmem S1024x1 .f32) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (hc : cond0_0 i) (x0 x1 : Vec F S1024x1024 .f32) :
    sout0_A_0 c i a1 h1 a2 h2 a3 h3 a4 h4 a5 h5 a6 h6 hc x0 x1 = k0_pay1 x1 := by
  unfold sout0_A_0
  rw [View.read_writes_eq_canon _ _ _ (scover0_A_0 c i a1 h1 a2 h2 a3 h3 a4 h4 a5 h5 a6 h6 hc x0 x1)]
  unfold kernelRun0_A
  dsimp only
  sl_unfold_words
  rw [View.canon_unit_zero hz]
  simp only [View.readAt_eq_ld, h2.read_unread, View.ld_unit_zero (S := S1024x1024) hz]

/-- … the second with the squared column norms of the weight block, -/
theorem carried1_A (c : Dev nD) (i : grid0.Coords) (a1 : Memref sig .tc .vmem S1024x1024 .f32) (h1 : a1.IsWhole) (a2 : Memref sig .tc .vmem S1024x1024 .f32) (h2 : a2.IsWhole) (a3 : Memref sig .tc .vmem S1024x1 .f32) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (hc : cond0_0 i) (x0 x1 : Vec F S1024x1024 .f32) :
    sout0_A_1 c i a1 h1 a2 h2 a3 h3 a4 h4 a5 h5 a6 h6 hc x0 x1 = k0_pay2 x1 := by
  unfold sout0_A_1
  rw [View.read_writes_eq_canon _ _ _ (scover0_A_1 c i a1 h1 a2 h2 a3 h3 a4 h4 a5 h5 a6 h6 hc x0 x1)]
  unfold kernelRun0_A
  dsimp only
  sl_unfold_words
  rw [View.canon_unit_zero hz]
  simp only [View.readAt_eq_ld, h2.read_unread, View.ld_unit_zero (S := S1024x1024) hz]

/-- … and the third with its row sums, laid out as a row. -/
theorem carried2_A (c : Dev nD) (i : grid0.Coords) (a1 : Memref sig .tc .vmem S1024x1024 .f32) (h1 : a1.IsWhole) (a2 : Memref sig .tc .vmem S1024x1024 .f32) (h2 : a2.IsWhole) (a3 : Memref sig .tc .vmem S1024x1 .f32) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (hc : cond0_0 i) (x0 x1 : Vec F S1024x1024 .f32) :
    sout0_A_2 c i a1 h1 a2 h2 a3 h3 a4 h4 a5 h5 a6 h6 hc x0 x1 = k0_pay3 x1 := by
  unfold sout0_A_2
  rw [View.read_writes_eq_canon _ _ _ (scover0_A_2 c i a1 h1 a2 h2 a3 h3 a4 h4 a5 h5 a6 h6 hc x0 x1)]
  unfold kernelRun0_A
  dsimp only
  sl_unfold_words
  rw [View.canon_unit_zero hz]
  simp only [View.readAt_eq_ld, h2.read_unread, View.ld_unit_zero (S := S1024x1024) hz]

/-- At the first grid point the output block is the body's result of the data block and of the three buffers it has
    just filled: each load of a buffer reads back what the one covering store before it left. -/
theorem out_A (c : Dev nD) (i : grid0.Coords) (a1 : Memref sig .tc .vmem S1024x1024 .f32) (h1 : a1.IsWhole) (a2 : Memref sig .tc .vmem S1024x1024 .f32) (h2 : a2.IsWhole) (a3 : Memref sig .tc .vmem S1024x1 .f32) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (hc : cond0_0 i) (x0 x1 : Vec F S1024x1024 .f32) :
    out0_A_2 c i a1 h1 a2 h2 a3 h3 a4 h4 a5 h5 a6 h6 hc x0 x1 = k0_pay4 x0 (k0_pay1 x1) (k0_pay2 x1) (k0_pay3 x1) := by
  unfold out0_A_2
  rw [View.read_writes_eq_canon _ _ _ (cover0_A_2 c i a1 h1 a2 h2 a3 h3 a4 h4 a5 h5 a6 h6 hc x0 x1)]
  unfold kernelRun0_A
  dsimp only
  sl_unfold_words
  rw [View.canon_unit_zero hz]
  rw [View.readCov_unit_zero (S := S1024x1024) _ hz, View.readCov_unit_zero (S := S1x1024) _ hz,
    View.readCov_unit_zero (S := S1x1024) _ hz]
  simp only [View.readAt_eq_ld, h1.read_unread, h2.read_unread, View.ld_unit_zero (S := S1024x1024) hz]

/-- At every later grid point the output block is the body's result of the data block and of what the three buffers
    held when the point began; the buffers are not written. -/
theorem out_B (c : Dev nD) (i : grid0.Coords) (a1 : Memref sig .tc .vmem S1024x1024 .f32) (h1 : a1.IsWhole) (a2 : Memref sig .tc .vmem S1024x1024 .f32) (h2 : a2.IsWhole) (a3 : Memref sig .tc .vmem S1024x1 .f32) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (hc : ¬cond0_0 i) (x0 x1 : Vec F S1024x1024 .f32)
    (xs0 : Vec F S1024x1024 .bf16) (xs1 xs2 : Vec F S1x1024 .f32) :
    out0_B_2 c i a1 h1 a2 h2 a3 h3 a4 h4 a5 h5 a6 h6 hc x0 x1 xs0 xs1 xs2 = k0_pay4 x0 xs0 xs1 xs2 := by
  unfold out0_B_2
  rw [View.read_writes_eq_canon _ _ _ (cover0_B_2 c i a1 h1 a2 h2 a3 h3 a4 h4 a5 h5 a6 h6 hc x0 x1 xs0 xs1 xs2)]
  unfold kernelRun0_B
  dsimp only
  sl_unfold_words
  rw [View.canon_unit_zero hz]
  simp only [View.readAt_eq_ld, h1.read_unread, h4.read_unread, h5.read_unread, h6.read_unread,
    View.ld_unit_zero (S := S1024x1024) hz, View.ld_unit_zero (S := S1x1024) hz]

end Cert.KernelIdeal.Pieces

end
-- ==== Proof.Carried.lean ====
/-
  The three buffers across the grid.  Point 0 fills them from its weights' block — the block rounded to bf16, the
  squared norms of its columns, its row sums — and no later point writes them.  So after every point they hold those
  three values, and the point's output block is the body's result of its data block and of them: the base case is the
  first point's run, the step is a later point's run over what the point before left.
-/
import proofs.«161366_j38706245271761_2_alg».proof.Proof.Gen.KernelIdeal.Frame
import proofs.«161366_j38706245271761_2_alg».proof.Proof.Pieces
import Idealize.ShloMosaic.PureOps.Ideal
import Idealize.ShloMosaic.Lib.ValueIdx
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What a point leaves when the buffers hold the three values of a weight block `W`: its output block, then the buffers. -/
abbrev leaves (c : Dev nD) (W : Vec Ideal S1024x1024 .f32) (n : ℕ) (hn : n < cfg0.N) :
    Vec Ideal S1024x1 .f32 × Vec Ideal S1024x1024 .bf16 × Vec Ideal S1x1024 .f32 × Vec Ideal S1x1024 .f32 :=
  (k0_pay4 (iblk m c 0 ⟨n, hn⟩) (k0_pay1 W) (k0_pay2 W) (k0_pay3 W), k0_pay1 W, k0_pay2 W, k0_pay3 W)

/-- The first point fills the buffers from its weights' block and computes its output block from them. -/
theorem leaves_zero (c : Dev nD) (hn : 0 < cfg0.N) : outsAt0 m c 0 hn = leaves m c (iblk m c 1 (⟨0, hn⟩ : Fin cfg0.N)) 0 hn := by
  have hc : cond0_0 (grid0.coords (⟨0, hn⟩ : Fin cfg0.N)) := (hcond0_0 (⟨0, hn⟩ : Fin cfg0.N)).mpr rfl
  refine (outsAt0_A m c (⟨0, hn⟩ : Fin cfg0.N) rfl).trans ?_
  rw [Pieces.out_A (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0_0 (Memref.isWhole_whole _) scM0_1 (Memref.isWhole_whole _) scM0_2 (Memref.isWhole_whole _) hc (iblk m c 0 (⟨0, hn⟩ : Fin cfg0.N)) (iblk m c 1 (⟨0, hn⟩ : Fin cfg0.N)),
    Pieces.carried0_A (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0_0 (Memref.isWhole_whole _) scM0_1 (Memref.isWhole_whole _) scM0_2 (Memref.isWhole_whole _) hc (iblk m c 0 (⟨0, hn⟩ : Fin cfg0.N)) (iblk m c 1 (⟨0, hn⟩ : Fin cfg0.N)),
    Pieces.carried1_A (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0_0 (Memref.isWhole_whole _) scM0_1 (Memref.isWhole_whole _) scM0_2 (Memref.isWhole_whole _) hc (iblk m c 0 (⟨0, hn⟩ : Fin cfg0.N)) (iblk m c 1 (⟨0, hn⟩ : Fin cfg0.N)),
    Pieces.carried2_A (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0_0 (Memref.isWhole_whole _) scM0_1 (Memref.isWhole_whole _) scM0_2 (Memref.isWhole_whole _) hc (iblk m c 0 (⟨0, hn⟩ : Fin cfg0.N)) (iblk m c 1 (⟨0, hn⟩ : Fin cfg0.N))]

/-- A later point leaves the buffers as it found them and computes its output block from them. -/
theorem leaves_succ (c : Dev nD) (W : Vec Ideal S1024x1024 .f32) (n : ℕ) (hn : n + 1 < cfg0.N)
    (ih : outsAt0 m c n (Nat.lt_of_succ_lt hn) = leaves m c W n (Nat.lt_of_succ_lt hn)) :
    outsAt0 m c (n + 1) hn = leaves m c W (n + 1) hn := by
  have hN : cfg0.N = 64 := N_0
  have hB : ¬(⟨n + 1, hn⟩ : Fin cfg0.N).val % 64 = 0 := by dsimp only; omega
  have hc : ¬cond0_0 (grid0.coords (⟨n + 1, hn⟩ : Fin cfg0.N)) := fun h => hB ((hcond0_0 (⟨n + 1, hn⟩ : Fin cfg0.N)).mp h)
  refine (outsAt0_B m c (⟨n + 1, hn⟩ : Fin cfg0.N) hB).trans ?_
  show (out0_B_2 c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) scM0_1 (Memref.isWhole_whole _) scM0_2 (Memref.isWhole_whole _) hc (iblk m c 0 (⟨n + 1, hn⟩ : Fin cfg0.N)) (iblk m c 1 (⟨n + 1, hn⟩ : Fin cfg0.N))
      (outsAt0 m c n (Nat.lt_of_succ_lt hn)).2.1 (outsAt0 m c n (Nat.lt_of_succ_lt hn)).2.2.1 (outsAt0 m c n (Nat.lt_of_succ_lt hn)).2.2.2,
    (outsAt0 m c n (Nat.lt_of_succ_lt hn)).2.1, (outsAt0 m c n (Nat.lt_of_succ_lt hn)).2.2.1,
    (outsAt0 m c n (Nat.lt_of_succ_lt hn)).2.2.2) = _
  rw [ih]
  dsimp only
  rw [Pieces.out_B (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) scM0_1 (Memref.isWhole_whole _) scM0_2 (Memref.isWhole_whole _) hc (iblk m c 0 (⟨n + 1, hn⟩ : Fin cfg0.N)) (iblk m c 1 (⟨n + 1, hn⟩ : Fin cfg0.N))
    (k0_pay1 W) (k0_pay2 W) (k0_pay3 W)]

/-- AFTER EVERY POINT, by induction on the point: the buffers hold the three values of the first point's weights' block. -/
theorem outsAt_eq (c : Dev nD) (h0 : 0 < cfg0.N) (n : ℕ) (hn : n < cfg0.N) :
    outsAt0 m c n hn = leaves m c (iblk m c 1 ⟨0, h0⟩) n hn := by
  induction n with
  | zero => exact leaves_zero m c hn
  | succ n ih => exact leaves_succ m c _ n hn (ih (Nat.lt_of_succ_lt hn))

end Cert.KernelIdeal.ArrayValue

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The body's arithmetic, read one entry at a time over the extended reals.

  A data block is 1024 rows of the data matrix.  For row `p` of the block the body forms the squared norm of the row,
  adds the squared norm of each column of the weights, subtracts twice the inner product of the row with that column,
  clamps at zero, turns the result into a radial weight `exp (−d / 2048)`, and finally divides the sum of the weights
  times the weights' row sums by the sum of the weights.  Every step below names which entry of its operand an entry of
  the result reads: a sum along an axis, a sum kept as a column, a column or a row repeated across the block, a
  transposed column, and the matrix product as a sum over the contracted index.
-/
import proofs.«161366_j38706245271761_2_alg».proof.Proof.Gen.KernelIdeal.Skeleton
import proofs.«161366_j38706245271761_2_alg».proof.Proof.Spec
import proofs.«161366_j38706245271761_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.RbfRatio Cert.LibColumn

/-! ## Sums along one axis of a 1024 × 1024 block -/

/-- Summing along the second axis: entry `p` is the sum of row `p`. -/
theorem sumAxis1_apply (v : FVec Ideal S1024x1024 .f32) (p : Fin 1024) :
    multiReduction .add [1] S1024 v 0x00000000#32 reduces_S1024x1024_S1024_2 (.inl rfl) rfl (ix1 p)
      = ∑ k : Fin 1024, v (ix2 p k) := by
  refine (Ideal.multiReduction_add_single v 0x00000000#32 reduces_S1024x1024_S1024_2 (.inl rfl) rfl (ix1 p)).trans ?_
  exact Finset.sum_congr rfl fun k _ => congrArg v (funext fun a => Fin.ext (by match a with | ⟨0, _⟩ => rfl | ⟨1, _⟩ => rfl))

/-- Summing along the first axis: entry `j` is the sum of column `j`. -/
theorem sumAxis0_apply (v : FVec Ideal S1024x1024 .f32) (j : Fin 1024) :
    multiReduction .add [0] S1024 v 0x00000000#32 reduces_S1024x1024_S1024 (.inl rfl) rfl (ix1 j)
      = ∑ k : Fin 1024, v (ix2 k j) := by
  refine (Ideal.multiReduction_add_single v 0x00000000#32 reduces_S1024x1024_S1024 (.inl rfl) rfl (ix1 j)).trans ?_
  exact Finset.sum_congr rfl fun k _ => congrArg v (funext fun a => Fin.ext (by match a with | ⟨0, _⟩ => rfl | ⟨1, _⟩ => rfl))

/-! ## What the first grid point stores in the three carried buffers, entry by entry -/

/-- The rounded copy of the weight block is, over the extended reals, the block itself. -/
theorem pay1_apply (W : Vec Ideal S1024x1024 .f32) (i : S1024x1024.Idx) : k0_pay1 W i = W i := by
  unfold k0_pay1
  rw [shapeCast_self]
  rfl

/-- Entry `j` of the second buffer is the squared norm of column `j`. -/
theorem pay2_apply (W : Vec Ideal S1024x1024 .f32) (u : Fin 1) (j : Fin 1024) : k0_pay2 W (ix2 u j) = colSq W j := by
  unfold k0_pay2
  rw [shapeCast_self]
  refine (shapeCast_a_1a_apply _ shapeCasts_S1024_S1x1024 u j).trans ?_
  refine (sumAxis0_apply _ j).trans ?_
  rfl

/-- Entry `j` of the third buffer is the sum of row `j` (a column of row sums, transposed into a row). -/
theorem pay3_apply (W : Vec Ideal S1024x1024 .f32) (u : Fin 1) (j : Fin 1024) : k0_pay3 W (ix2 u j) = rowSum W j := by
  unfold k0_pay3
  rw [shapeCast_self]
  refine (transpose_ix2_apply _ transposes_S1024x1_p1_0_S1x1024 u j).trans ?_
  refine (shapeCast_a_a1_apply _ shapeCasts_S1024_S1024x1 j u).trans ?_
  refine (sumAxis1_apply _ j).trans ?_
  rfl

/-! ## The matrix product of the data block with the carried weights, at an entry -/

theorem lhs_0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry `(p, j)` of the product into a zero accumulator is the inner product of row `p` of the data block with
    column `j` of the weights; the rounding of the data block on the way in is the identity over the extended reals. -/
theorem matmul_at (x0 : Vec Ideal S1024x1024 .f32) (wb : FVec Ideal S1024x1024 .bf16) (p j : Fin 1024) :
    matmul dot_S1024x1024_S1024x1024_S1024x1024_1_0_0_1_n_n none (truncf .bf16 x0 bitsLt_bf16_f32) wb (constant (F := Ideal) S1024x1024 .f32 0x00000000#32) (ix2 p j)
      = ∑ k : Fin 1024, x0 (ix2 p k) * wb (ix2 k j) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p j) ((ValueIdx.contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p j) ((ValueIdx.contrEquiv1 dot_S1024x1024_S1024x1024_S1024x1024_1_0_0_1_n_n 1024 rfl rfl).symm k) = ix2 k j := funext fun a => Fin.ext (by
    match a with
    | ⟨0, _⟩ => exact (rhs_0 _ _).trans hk
    | ⟨1, _⟩ => exact rhs_1 _ _)
  rw [el, er]
  rfl

/-! ## One radial weight, and the ratio -/

/-- The pointwise chain from the three distance terms to the radial weight, at one entry: `0 − d` is `−d`. -/
theorem weight_at (A B C : FVec Ideal S1024x1024 .f32) (x : Row) (W : Mat) (i : S1024x1024.Idx) (j : Fin 1024)
    (hA : A i = rowSq x) (hB : B i = colSq W j) (hC : C i = cross x W j) :
    Idealize.ShloMosaic.exp (divf (subf (broadcast S1024x1024 (FloatOps.ofBits (F := Ideal) .f32 0x00000000#32))
        (maximumf (subf (addf A B) (mulf (broadcast S1024x1024 (FloatOps.ofBits (F := Ideal) .f32 0x40000000#32)) C))
          (broadcast S1024x1024 (FloatOps.ofBits (F := Ideal) .f32 0x00000000#32))))
        (broadcast S1024x1024 (FloatOps.ofBits (F := Ideal) .f32 0x45000000#32))) i = basis x W j := by
  show Ideal.exp (Ideal.div (Ideal.ofBits .f32 0x00000000#32 - max (A i + B i - Ideal.ofBits .f32 0x40000000#32 * C i)
    (Ideal.ofBits .f32 0x00000000#32)) (Ideal.ofBits .f32 0x45000000#32)) = _
  rw [hA, hB, hC, Ideal.ofBits_zero_f32, zero_sub]
  rfl

/-- The last steps: with the weights of row `p` in hand, the two lane sums kept as columns and their quotient. -/
theorem ratio_of_weights (V : FVec Ideal S1024x1024 .f32) (s : Vec Ideal S1x1024 .f32) (x : Row) (W : Mat)
    (p : Fin 1024) (q : Fin 1) (hV : ∀ j : Fin 1024, V (ix2 p j) = basis x W j)
    (hs : ∀ (u : Fin 1) (j : Fin 1024), s (ix2 u j) = rowSum W j) :
    divf (shapeCast S1024x1 (multiReduction .add [1] S1024 (mulf V (broadcastTo S1024x1024 s broadcasts_S1x1024_S1024x1024))
          0x00000000#32 reduces_S1024x1024_S1024_2 (.inl rfl) rfl) shapeCasts_S1024_S1024x1)
      (shapeCast S1024x1 (multiReduction .add [1] S1024 V 0x00000000#32 reduces_S1024x1024_S1024_2 (.inl rfl) rfl)
        shapeCasts_S1024_S1024x1) (ix2 p q)
      = ratio x W := by
  show Ideal.div _ _ = _
  unfold ratio
  congr 1
  · refine (shapeCast_a_a1_apply _ shapeCasts_S1024_S1024x1 p q).trans ?_
    refine (sumAxis1_apply _ p).trans ?_
    refine Finset.sum_congr rfl fun j _ => ?_
    show V (ix2 p j) * broadcastTo S1024x1024 s broadcasts_S1x1024_S1024x1024 (ix2 p j) = _
    rw [hV j, broadcastTo_1b_ab_apply s broadcasts_S1x1024_S1024x1024 p j, hs]
  · refine (shapeCast_a_a1_apply _ shapeCasts_S1024_S1024x1 p q).trans ?_
    refine (sumAxis1_apply _ p).trans ?_
    exact Finset.sum_congr rfl fun j _ => hV j

/-- THE OUTPUT BLOCK, entry by entry: with the three buffers holding the weights, their squared column norms and their
    row sums, entry `(p, 0)` of the block is the ratio for row `p` of the data block. -/
theorem pay4_apply (x0 : Vec Ideal S1024x1024 .f32) (wb : Vec Ideal S1024x1024 .bf16) (p2 s : Vec Ideal S1x1024 .f32) (W : Mat)
    (hwb : ∀ k j : Fin 1024, wb (ix2 k j) = W (ix2 k j)) (hp2 : ∀ (u : Fin 1) (j : Fin 1024), p2 (ix2 u j) = colSq W j)
    (hs : ∀ (u : Fin 1) (j : Fin 1024), s (ix2 u j) = rowSum W j) (p : Fin 1024) (q : Fin 1) :
    k0_pay4 x0 wb p2 s (ix2 p q) = ratio (fun k => x0 (ix2 p k)) W := by
  unfold k0_pay4
  dsimp only
  refine ratio_of_weights _ s _ W p q (fun j => ?_) hs
  refine weight_at _ _ _ _ W (ix2 p j) j ?_ ?_ ?_
  · refine (broadcastTo_a1_ab_apply _ broadcasts_S1024x1_S1024x1024 p j).trans ?_
    refine (shapeCast_a_a1_apply _ shapeCasts_S1024_S1024x1 p 0).trans ?_
    refine (sumAxis1_apply _ p).trans ?_
    rfl
  · exact (broadcastTo_1b_ab_apply p2 broadcasts_S1x1024_S1024x1024 p j).trans (hp2 0 j)
  · refine (matmul_at x0 wb p j).trans ?_
    exact Finset.sum_congr rfl fun k _ => by rw [hwb]

end Cert.KernelIdeal.Payload

end
-- ==== Proof.ArrayValue.lean ====
/-
  From one grid point to the whole result array.

  After every point the output block is the body's result of the point's data block and of the three carried values of
  the weight matrix (Proof/Carried.lean).  Entry by entry that is the ratio of the corresponding row of the data matrix
  (Proof/Payload.lean, Proof/Blocks.lean); the 64 blocks tile the result column — row `r` is written by point
  `r / 1024` — and so the array after the run is the specification's `result` of the two argument arrays.
-/
import proofs.«161366_j38706245271761_2_alg».proof.Proof.Gen.KernelIdeal.Value
import proofs.«161366_j38706245271761_2_alg».proof.Proof.Blocks
import proofs.«161366_j38706245271761_2_alg».proof.Proof.Carried
import proofs.«161366_j38706245271761_2_alg».proof.Proof.Payload
import proofs.«161366_j38706245271761_2_alg».proof.Proof.Spec
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.RbfRatio
open Idealize.ShloMosaic.Pipeline (Dat)

variable (m : (ℓ : Loc nD τ sig) → Buf (Elt Ideal) ℓ) (ρ : Dev nD → PrngReg)

/-- The grid is not empty. -/
theorem h0N : 0 < cfg0.N := by rw [show cfg0.N = 64 from N_0]; decide

/-- One entry of one point's output block, the buffers holding the three values of the weight matrix, is the
    specification's result at the array index under it. -/
theorem block_entry (c : Dev nD) (t : Fin cfg0.N) (W0 : Vec Ideal S1024x1024 .f32) (hW0 : W0 = Wm m c)
    (y : S1024x1.Idx) (i : S65536x1.Idx) (hi : (i 0).val = t.val * 1024 + (y 0).val) :
    k0_pay4 (iblk m c 0 t) (k0_pay1 W0) (k0_pay2 W0) (k0_pay3 W0) y = result (Xm m c) (Wm m c) i := by
  subst hW0
  obtain ⟨p, q, rfl⟩ : ∃ (p : Fin 1024) (q : Fin 1), y = ix2 p q := ⟨y 0, y 1, eq_ix2 y⟩
  refine (Payload.pay4_apply (iblk m c 0 t) (k0_pay1 (Wm m c)) (k0_pay2 (Wm m c)) (k0_pay3 (Wm m c)) (Wm m c)
    (fun k j => Payload.pay1_apply (Wm m c) (ix2 k j)) (Payload.pay2_apply (Wm m c)) (Payload.pay3_apply (Wm m c)) p q).trans ?_
  unfold result
  refine congrArg (fun x => ratio x (Wm m c)) (funext fun k => ?_)
  exact xblk_apply m c t p k ⟨(i 0).val, (i 0).isLt⟩ hi

/-- WHAT POINT `t` WRITES BACK is block `t` of the specification's result of the two argument arrays. -/
theorem flushed_eq (c : Dev nD) (t : Fin cfg0.N) :
    (dats m 0 c).flushed 2 t = ((cfg0.win 2).blk t).view.read (Elt Ideal) (result (Xm m c) (Wm m c)) := by
  rw [Cert.KernelIdeal.Value.flushed2, outsAt_eq m c h0N t.val t.isLt]
  dsimp only [leaves]
  obtain ⟨-, -, -, -, e4, e5⟩ := idx_facts t
  funext y
  refine block_entry m c t (iblk m c 1 ⟨0, h0N⟩) (wblk_eq m c ⟨0, h0N⟩) y (((cfg0.win 2).blk t).view.emb y) ?_
  show win0_2.index t (0 : Fin 2) * 1024 + 1 * (y 0).val = t.val * 1024 + (y 0).val
  rw [e4]; omega

/-- An index of the result column is in point `t`'s block iff each coordinate is in the block's range on its axis. -/
theorem mem_blk (t : Fin cfg0.N) (i : S65536x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- Every entry of the result column is written by some point: row `r` by point `r / 1024`. -/
theorem cover (i : S65536x1.Idx) : ∃ t : Fin cfg0.N, (cfg0.win 2).flush t = true ∧ i ∈ ((cfg0.win 2).blk t).view.set := by
  have hN : cfg0.N = 64 := N_0
  have hi0 : (i 0).val < 65536 := (i 0).isLt
  have hi1 : (i 1).val < 1 := (i 1).isLt
  have ht : (i 0).val / 1024 < cfg0.N := by rw [hN]; omega
  obtain ⟨-, -, -, -, e4, e5⟩ := idx_facts ⟨(i 0).val / 1024, ht⟩
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ (1 : Fin 2) * 1 ≤ (i 1).val ∧ (i 1).val < win0_2.index ⟨(i 0).val / 1024, ht⟩ (1 : Fin 2) * 1 + 1
    rw [e5]; omega

/-- THE RESULT ARRAY after the run is the specification's result of the two argument arrays. -/
theorem final (c : Dev nD) : (dats m 0 c).arrAt 2 cfg0.N = result (Xm m c) (Wm m c) :=
  (dats m 0 c).arrAt_eq_of_cover 2 (result (Xm m c) (Wm m c)) (fun t _ => flushed_eq m c t) cover

/-- The kernel's run, read: the result array at the specification's result, the two arguments unchanged. -/
theorem run : θ_run defs (onTc (τ := τ) (main (F := Ideal))) ⟨m, fun _ => 0, ρ⟩ fun r => ∀ c : Dev nD,
      r.2.mem ((c : Thread nD τ).loc main_v0) = result (Xm m c) (Wm m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference, read one entry at a time over the extended reals.

  Its result at row `r` is a quotient.  Below the line is the sum over the columns `j` of the radial weights of row
  `r`; above it the weights of row `r` are multiplied into the weight matrix and the product's row is summed over its
  columns.  Each generated stage names the entry of its operand that an entry of its result reads; composing them gives
  the entries named here, and the arithmetic is then the specification's, term for term.
-/
import proofs.«161366_j38706245271761_2_alg».proof.Proof.Gen.ReferenceIdeal.Read
import proofs.«161366_j38706245271761_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.RbfRatio

/-- One radial weight of the reference: the stages from the two arguments to the exponential, read at entry `(r, j)`.
    The sums' zero initial values and the `0` under the maximum are the extended real 0. -/
theorem ref_weight (X : (⟨S65536x1024, .f32⟩ : BufTy).Contents (Elt Ideal)) (W : (⟨S1024x1024, .f32⟩ : BufTy).Contents (Elt Ideal))
    (r : Fin 65536) (j : Fin 1024) :
    val_main_v18 (F := Ideal) X W (ix2 r j) = basis (fun k => X (ix2 r k)) W j := by
  have e1 : ∀ k : Fin 1024, idx_main_v1 (idx_main_v2 (idx_main_v6 (ix2 r j))) k = ix2 r k := fun k => funext fun a => Fin.ext (by match a with | ⟨0, _⟩ => rfl | ⟨1, _⟩ => rfl)
  have e4 : ∀ k : Fin 1024, idx_main_v4 (idx_main_v5 (idx_main_v7 (ix2 r j))) k = ix2 k j := fun k => funext fun a => Fin.ext (by match a with | ⟨0, _⟩ => rfl | ⟨1, _⟩ => rfl)
  have l9 : ∀ k : Fin 1024, lidx_main_v9 (ix2 r j) k = ix2 r k := fun k => funext fun a => Fin.ext (by match a with | ⟨0, _⟩ => rfl | ⟨1, _⟩ => rfl)
  have r9 : ∀ k : Fin 1024, ridx_main_v9 (ix2 r j) k = ix2 k j := fun k => funext fun a => Fin.ext (by match a with | ⟨0, _⟩ => rfl | ⟨1, _⟩ => rfl)
  simp only [val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply,
    val_main_cst_2_apply, val_main_cst_3_apply, e1, e4, l9, r9,
    Ideal.hostDivf_def, Ideal.hostUnary_exp_def, Ideal.hostNegf_def, Ideal.negf_def, Ideal.mulf_def, Ideal.addf_def,
    Ideal.subf_def, Ideal.maximumf_def, Ideal.ofBits_def, Ideal.ofBits_zero_f32, zero_add]
  rfl

/-- THE REFERENCE'S RESULT, entry by entry: the quotient of the column-summed weighted product by the sum of the weights. -/
theorem ref_apply (X : (⟨S65536x1024, .f32⟩ : BufTy).Contents (Elt Ideal)) (W : (⟨S1024x1024, .f32⟩ : BufTy).Contents (Elt Ideal))
    (r : Fin 65536) (u : Fin 1) :
    val_main_v24 (F := Ideal) X W (ix2 r u) = ratioRef (fun k => X (ix2 r k)) W := by
  have e22 : ∀ k : Fin 1024, idx_main_v22 (idx_main_v23 (ix2 r u)) k = ix2 r k := fun k => funext fun a => Fin.ext (by match a with | ⟨0, _⟩ => rfl | ⟨1, _⟩ => rfl)
  have e19 : ∀ k : Fin 1024, idx_main_v19 (idx_main_v20 (ix2 r u)) k = ix2 r k := fun k => funext fun a => Fin.ext (by match a with | ⟨0, _⟩ => rfl | ⟨1, _⟩ => rfl)
  have l21 : ∀ m k : Fin 1024, lidx_main_v21 (ix2 r m) k = ix2 r k := fun m k => funext fun a => Fin.ext (by match a with | ⟨0, _⟩ => rfl | ⟨1, _⟩ => rfl)
  have r21 : ∀ m k : Fin 1024, ridx_main_v21 (ix2 r m) k = ix2 k m := fun m k => funext fun a => Fin.ext (by match a with | ⟨0, _⟩ => rfl | ⟨1, _⟩ => rfl)
  rw [val_main_v24_apply, val_main_v23_apply, val_main_v20_apply, val_main_v22_apply, val_main_v19_apply]
  simp only [e22, e19, val_main_v21_apply, l21, r21, ref_weight, val_main_cst_5_apply, val_main_cst_4_apply,
    Ideal.hostDivf_def, Ideal.ofBits_def, Ideal.ofBits_zero_f32, zero_add]
  rfl

/-- With real entries in the weight matrix the reference's result array is the specification's `result`: the two
    numerators agree by the sum law. -/
theorem ref_result (X : (⟨S65536x1024, .f32⟩ : BufTy).Contents (Elt Ideal)) (W : (⟨S1024x1024, .f32⟩ : BufTy).Contents (Elt Ideal))
    (hW : ∀ i, ∃ r : ℝ, W i = r) : val_main_v24 (F := Ideal) X W = result X W := by
  funext i
  obtain ⟨r, u, rfl⟩ : ∃ (r : Fin 65536) (u : Fin 1), i = ix2 r u := ⟨i 0, i 1, eq_ix2 i⟩
  rw [ref_apply, ratioRef_eq_ratio _ _ hW]
  rfl

end Cert.ReferenceIdeal.RefValue

end
-- ==== Proof.lean ====
/-
  Two programs for one ratio of radial-basis sums, and why they agree over the extended reals.

  Inputs: a data matrix `x` (65536 × 1024) and a square weight matrix `W` (1024 × 1024).  For each row of `x` both
  programs form, for every column `j` of `W`, the clamped squared distance `max (|x|² + |W·j|² − 2 x·W·j) 0`, the radial
  weight `b j = exp (−d j / 2048)`, and return a quotient whose denominator is `∑ j, b j`.  They differ in the numerator:
  the reference multiplies the row of weights into `W` and sums the product over its columns, `∑ m, ∑ j, b j · W j m`,
  while the kernel multiplies each weight by the sum of row `j` of `W`, `∑ j, b j · ∑ m, W j m`.  The two are equal by
  exchanging the sums and distributing — valid because every `b j` is a real number in [0, 1] and, under the
  precondition, so is every entry of `W` (Proof/SumLaw.lean, Proof/Spec.lean, Proof/Finite.lean).

  The kernel walks the rows in 64 blocks of 1024.  At the first block it stores three quantities of `W` it needs again
  (a rounded copy, the squared column norms, the row sums) and every later block reads them back unchanged
  (Proof/Pieces.lean, Proof/ArrayValue.lean); entry by entry a block's output is the ratio above (Proof/Payload.lean),
  and the 64 blocks tile the result.  The reference's stages are read entry by entry in Proof/RefValue.lean.
  Rounding to bf16 before the matrix product, the product into a zero accumulator against a plain matrix product,
  lane sums against host sums, and `0 − d` against `−d` are all identities over the extended reals.
  The frames are the generated ones; the idealization rewrote nothing, so its conjunct is trivial.
-/
import proofs.«161366_j38706245271761_2_alg».proof.Defs
import proofs.«161366_j38706245271761_2_alg».proof.Proof.Gen.Kernel
import proofs.«161366_j38706245271761_2_alg».proof.Proof.Gen.Kernel.Skeleton
import proofs.«161366_j38706245271761_2_alg».proof.Proof.Gen.Kernel.Launch
import proofs.«161366_j38706245271761_2_alg».proof.Proof.Gen.Kernel.Points
import proofs.«161366_j38706245271761_2_alg».proof.Proof.Gen.Kernel.Frame
import proofs.«161366_j38706245271761_2_alg».proof.Proof.Gen.KernelIdeal
import proofs.«161366_j38706245271761_2_alg».proof.Proof.Gen.KernelIdeal.Skeleton
import proofs.«161366_j38706245271761_2_alg».proof.Proof.Gen.KernelIdeal.Launch
import proofs.«161366_j38706245271761_2_alg».proof.Proof.Gen.KernelIdeal.Points
import proofs.«161366_j38706245271761_2_alg».proof.Proof.Gen.KernelIdeal.Frame
import proofs.«161366_j38706245271761_2_alg».proof.Proof.Gen.ReferenceIdeal
import proofs.«161366_j38706245271761_2_alg».proof.Proof.Gen.Pre_finite_inputs
import proofs.«161366_j38706245271761_2_alg».proof.Proof.Gen.KernelIdeal.Value
import proofs.«161366_j38706245271761_2_alg».proof.Proof.Gen.ReferenceIdeal.Run
import proofs.«161366_j38706245271761_2_alg».proof.Proof.Gen.ReferenceIdeal.Read
import proofs.«161366_j38706245271761_2_alg».proof.Proof.Spec
import proofs.«161366_j38706245271761_2_alg».proof.Proof.Finite
import proofs.«161366_j38706245271761_2_alg».proof.Proof.ArrayValue
import proofs.«161366_j38706245271761_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's `result` of the (agreeing) argument arrays: the
    kernel's by its blocks, the reference's by its stages and, for the numerator, the sum law under the precondition. -/
theorem algebraic : Cert.algebraic_KernelIdeal_ReferenceIdeal := by
  intro m ρ m' ρ' hpre hagree
  refine ⟨fun c => Cert.RbfRatio.result (Cert.KernelIdeal.ArrayValue.Xm m c) (Cert.KernelIdeal.ArrayValue.Wm m c),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  exact Cert.ReferenceIdeal.RefValue.ref_result _ _ (Cert.FiniteInputs.real_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
